-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S1600000 : Shape := ⟨1, ![1600000]⟩
abbrev S64x64 : Shape := ⟨2, ![64, 64]⟩
abbrev S64 : Shape := ⟨1, ![64]⟩
abbrev S64x32 : Shape := ⟨2, ![64, 32]⟩
abbrev S32 : Shape := ⟨1, ![32]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_

variable [Facts]

def fn_part1 {F : FTy → Type} [FloatOps F] (main_arg6 : FVec F S64 .f32) (main_arg7 : FVec F S64x32 .f32) (main_arg8 : FVec F S32 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x32 .f32 := Host.absf main_arg7
  let main_cst_8 : FVec F S_ .f32 := constant S_ .f32 0x7F800000#32
  let main_v25 : FVec F S64x32 .f32 := broadcastInDim S64x32 ![] bcast_S_S64x32 main_cst_8
  let main_v26 : IVec S64x32 1 := cmpf .olt main_v24 main_v25
  let main_c_9 : IVec S_ 1 := constantI S_ 1 1#1
  let main_v27 : IVec S_ 1 := (fun x v => Host.reduce IntOp.andi x v reducesTo_S64x32_S_d0_1 h_S_) main_v26 main_c_9
  let main_v28 : IVec S_ 1 := andi main_v23 main_v27
  let main_v29 : FVec F S32 .f32 := Host.absf main_arg8
  let main_cst_10 : FVec F S_ .f32 := constant S_ .f32 0x7F800000#32
  let main_v30 : FVec F S32 .f32 := broadcastInDim S32 ![] bcast_S_S32 main_cst_10
  let main_v31 : IVec S32 1 := cmpf .olt main_v29 main_v30
  let main_c_11 : IVec S_ 1 := constantI S_ 1 1#1
  let main_v32 : IVec S_ 1 := (fun x v => Host.reduce IntOp.andi x v reducesTo_S32_S_d0 h_S_) main_v31 main_c_11
  let main_v33 : IVec S_ 1 := andi main_v28 main_v32
  main_v33

def fn {F : FTy → Type} [FloatOps F] (main_arg0 : FVec F S100000x64 .f32) (main_arg1 : IVec S1600000 32) (main_arg2 : IVec S1600000 32) (main_arg3 : FVec F S64x64 .f32) (main_arg4 : FVec F S64 .f32) (main_arg5 : FVec F S64x64 .f32) (main_arg6 : FVec F S64 .f32) (main_arg7 : FVec F S64x32 .f32) (main_arg8 : FVec F S32 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg3
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg5
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg6 main_arg7 main_arg8 main_v13 main_v16
-- ==== Kernel.lean ====
abbrev S100000x64 : Shape := ⟨2, ![100000, 64]⟩
abbrev S1600000 : Shape := ⟨1, ![1600000]⟩
abbrev S64x64 : Shape := ⟨2, ![64, 64]⟩
abbrev S64 : Shape := ⟨1, ![64]⟩
abbrev S64x32 : Shape := ⟨2, ![64, 32]⟩
abbrev S32 : Shape := ⟨1, ![32]⟩
abbrev S_ : Shape := ⟨0, ![]⟩
abbrev S1600000x1 : Shape := ⟨2, ![1600000, 1]⟩
abbrev S1600000x64 : Shape := ⟨2, ![1600000, 64]⟩
abbrev S1x64 : Shape := ⟨2, ![1, 64]⟩
abbrev S5000x64 : Shape := ⟨2, ![5000, 64]⟩
abbrev S1x32 : Shape := ⟨2, ![1, 32]⟩
abbrev S100000x32 : Shape := ⟨2, ![100000, 32]⟩
abbrev S5000x32 : Shape := ⟨2, ![5000, 32]⟩

abbrev nBuf : Space → Nat
  | .hbm => 40
  | .vmem => 14
  | .smem => 0
  | _ => 0

abbrev bufTy : (tb : Table) → Fin (tcTables nBuf tb) → BufTy
  | .hbm, ⟨0, _⟩ => ⟨S100000x64, .f32⟩
  | .hbm, ⟨1, _⟩ => ⟨S1600000, .i32⟩
  | .hbm, ⟨2, _⟩ => ⟨S1600000, .i32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64x32, .f32⟩
  | .hbm, ⟨8, _⟩ => ⟨S32, .f32⟩
  | .hbm, ⟨9, _⟩ => ⟨S_, .i32⟩
  | .hbm, ⟨10, _⟩ => ⟨S1600000, .i32⟩
  | .hbm, ⟨11, _⟩ => ⟨S1600000, .i1⟩
  | .hbm, ⟨12, _⟩ => ⟨S_, .i32⟩
  | .hbm, ⟨13, _⟩ => ⟨S1600000, .i32⟩
  | .hbm, ⟨14, _⟩ => ⟨S1600000, .i32⟩
  | .hbm, ⟨15, _⟩ => ⟨S1600000, .i32⟩
  | .hbm, ⟨16, _⟩ => ⟨S1600000x1, .i32⟩
  | .hbm, ⟨17, _⟩ => ⟨S1600000x64, .f32⟩
  | .hbm, ⟨18, _⟩ => ⟨S_, .f32⟩
  | .hbm, ⟨19, _⟩ => ⟨S100000x64, .f32⟩
  | .hbm, ⟨20, _⟩ => ⟨S1600000x1, .i32⟩
  | .hbm, ⟨21, _⟩ => ⟨S100000x64, .f32⟩
  | .hbm, ⟨22, _⟩ => ⟨S1x64, .f32⟩
  | .hbm, ⟨23, _⟩ => ⟨S100000x64, .f32⟩
  | .hbm, ⟨24, _⟩ => ⟨S_, .i32⟩
  | .hbm, ⟨25, _⟩ => ⟨S1600000, .i32⟩
  | .hbm, ⟨26, _⟩ => ⟨S1600000, .i1⟩
  | .hbm, ⟨27, _⟩ => ⟨S_, .i32⟩
  | .hbm, ⟨28, _⟩ => ⟨S1600000, .i32⟩
  | .hbm, ⟨29, _⟩ => ⟨S1600000, .i32⟩
  | .hbm, ⟨30, _⟩ => ⟨S1600000, .i32⟩
  | .hbm, ⟨31, _⟩ => ⟨S1600000x1, .i32⟩
  | .hbm, ⟨32, _⟩ => ⟨S1600000x64, .f32⟩
  | .hbm, ⟨33, _⟩ => ⟨S_, .f32⟩
  | .hbm, ⟨34, _⟩ => ⟨S100000x64, .f32⟩
  | .hbm, ⟨35, _⟩ => ⟨S1600000x1, .i32⟩
  | .hbm, ⟨36, _⟩ => ⟨S100000x64, .f32⟩
  | .hbm, ⟨37, _⟩ => ⟨S1x64, .f32⟩
  | .hbm, ⟨38, _⟩ => ⟨S1x32, .f32⟩
  | .hbm, ⟨39, _⟩ => ⟨S100000x32, .f32⟩
  | .local _ .vmem, ⟨0, _⟩ => ⟨S5000x64, .f32⟩
  | .local _ .vmem, ⟨1, _⟩ => ⟨S5000x64, .f32⟩
  | .local _ .vmem, ⟨2, _⟩ => ⟨S64x64, .f32⟩
  | .local _ .vmem, ⟨3, _⟩ => ⟨S1x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S5000x64, .f32⟩
  | .local _ .vmem, ⟨8, _⟩ => ⟨S64x64, .f32⟩
  | .local _ .vmem, ⟨9, _⟩ => ⟨S1x64, .f32⟩
  | .local _ .vmem, ⟨10, _⟩ => ⟨S64x32, .f32⟩
  | .local _ .vmem, ⟨11, _⟩ => ⟨S1x32, .f32⟩
  | .local _ .vmem, ⟨12, _⟩ => ⟨S5000x32, .f32⟩
  | .local _ .vmem, ⟨13, _⟩ => ⟨S5000x32, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_c_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_c_1 : Ref sig .tc := ⟨.hbm, 24, rfl⟩
abbrev main_v12 : Ref sig .tc := ⟨.hbm, 25, rfl⟩
abbrev main_v13 : Ref sig .tc := ⟨.hbm, 26, rfl⟩
abbrev main_c_2 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_3 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg5_0 : Ref sig .tc := ⟨.vmem, 12, rfl⟩
abbrev cc1_stg5_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem4_0 : DmaSem sig := 11
abbrev cc1_sem5_0 : DmaSem sig := 12
abbrev cc1_sem5_1 : DmaSem sig := 13

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x32 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x32 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x32 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  shapeCasts_S64_S1x64 : S64.ShapeCasts S1x64
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  shapeCasts_S32_S1x32 : S32.ShapeCasts S1x32
  inb_S64x32_S64x32_0_0 : ∀ a, (![0, 0] : Fin 2 → Nat) a + S64x32.size a ≤ S64x32.size a
  h_S64x32 : 0 < S64x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S5000x32 : S1x32.Broadcasts S5000x32
  inb_S5000x32_S5000x32_0_0 : ∀ a, (![0, 0] : Fin 2 → Nat) a + S5000x32.size a ≤ S5000x32.size a
  h_S5000x32 : 0 < S5000x32.numel
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S5000x64_S64x64_S5000x64_1_0_0_1_n_n_wf : DotDims.WF S5000x64 S64x64 S5000x64 [1] [0] [0] [1] [] []
  dot_S5000x64_S64x32_S5000x32_1_0_0_1_n_n_wf : DotDims.WF S5000x64 S64x32 S5000x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x64.size a ≤ S100000x64.size a
  hwx0_3 : ∀ i : grid0.Coords, EltTy.bits .f32 = 32 ∨ (Rect.block (s := S100000x64) S5000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x64.size a ≤ S64x64.size a
  hwx1_1 : ∀ i : grid1.Coords, EltTy.bits .f32 = 32 ∨ (Rect.block (s := S64x64) S64x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x32.size a ≤ S64x32.size a
  hwx1_3 : ∀ i : grid1.Coords, EltTy.bits .f32 = 32 ∨ (Rect.block (s := S64x32) S64x32.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x32.size a ≤ S1x32.size a
  hwx1_4 : ∀ i : grid1.Coords, EltTy.bits .f32 = 32 ∨ (Rect.block (s := S1x32) S1x32.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x32.size a ≤ S100000x32.size a
  hwx1_5 : ∀ i : grid1.Coords, EltTy.bits .f32 = 32 ∨ (Rect.block (s := S100000x32) S5000x32.size (cc1_transform_5 i) (hinb1_5 i)).WholeWords (EltTy.packing .f32)

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def dot_S5000x64_S64x32_S5000x32_1_0_0_1_n_n : DotDims S5000x64 S64x32 S5000x32 where
  lhsContracting := [1]
  rhsContracting := [0]
  lhsNonContracting := [0]
  rhsNonContracting := [1]
  lhsBatch := []
  rhsBatch := []
  wf := dot_S5000x64_S64x32_S5000x32_1_0_0_1_n_n_wf

abbrev win0_0 : Pipeline.Window sig grid0 :=
  Pipeline.Window.ofSpec (Memref.whole main_v9) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v10) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v11) S5000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v21) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S64x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v22) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg7) S64x32.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v23) S1x32.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v24) S5000x32.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x64 : Shape := ⟨2, ![100000, 64]⟩
abbrev S1600000 : Shape := ⟨1, ![1600000]⟩
abbrev S64x64 : Shape := ⟨2, ![64, 64]⟩
abbrev S64 : Shape := ⟨1, ![64]⟩
abbrev S64x32 : Shape := ⟨2, ![64, 32]⟩
abbrev S32 : Shape := ⟨1, ![32]⟩
abbrev S_ : Shape := ⟨0, ![]⟩
abbrev S1600000x1 : Shape := ⟨2, ![1600000, 1]⟩
abbrev S1600000x64 : Shape := ⟨2, ![1600000, 64]⟩
abbrev S1x64 : Shape := ⟨2, ![1, 64]⟩
abbrev S100000x32 : Shape := ⟨2, ![100000, 32]⟩
abbrev S1x32 : Shape := ⟨2, ![1, 32]⟩

abbrev nBuf : Space → Nat
  | .hbm => 53
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S1600000, .i32⟩
  | .hbm, ⟨2, _⟩ => ⟨S1600000, .i32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64x32, .f32⟩
  | .hbm, ⟨8, _⟩ => ⟨S32, .f32⟩
  | .hbm, ⟨9, _⟩ => ⟨S_, .i32⟩
  | .hbm, ⟨10, _⟩ => ⟨S1600000, .i32⟩
  | .hbm, ⟨11, _⟩ => ⟨S1600000, .i1⟩
  | .hbm, ⟨12, _⟩ => ⟨S_, .i32⟩
  | .hbm, ⟨13, _⟩ => ⟨S1600000, .i32⟩
  | .hbm, ⟨14, _⟩ => ⟨S1600000, .i32⟩
  | .hbm, ⟨15, _⟩ => ⟨S1600000, .i32⟩
  | .hbm, ⟨16, _⟩ => ⟨S1600000x1, .i32⟩
  | .hbm, ⟨17, _⟩ => ⟨S1600000x64, .f32⟩
  | .hbm, ⟨18, _⟩ => ⟨S_, .f32⟩
  | .hbm, ⟨19, _⟩ => ⟨S100000x64, .f32⟩
  | .hbm, ⟨20, _⟩ => ⟨S1600000x1, .i32⟩
  | .hbm, ⟨21, _⟩ => ⟨S100000x64, .f32⟩
  | .hbm, ⟨22, _⟩ => ⟨S100000x64, .f32⟩
  | .hbm, ⟨23, _⟩ => ⟨S1x64, .f32⟩
  | .hbm, ⟨24, _⟩ => ⟨S100000x64, .f32⟩
  | .hbm, ⟨25, _⟩ => ⟨S100000x64, .f32⟩
  | .hbm, ⟨26, _⟩ => ⟨S_, .f32⟩
  | .hbm, ⟨27, _⟩ => ⟨S100000x64, .f32⟩
  | .hbm, ⟨28, _⟩ => ⟨S100000x64, .f32⟩
  | .hbm, ⟨29, _⟩ => ⟨S_, .i32⟩
  | .hbm, ⟨30, _⟩ => ⟨S1600000, .i32⟩
  | .hbm, ⟨31, _⟩ => ⟨S1600000, .i1⟩
  | .hbm, ⟨32, _⟩ => ⟨S_, .i32⟩
  | .hbm, ⟨33, _⟩ => ⟨S1600000, .i32⟩
  | .hbm, ⟨34, _⟩ => ⟨S1600000, .i32⟩
  | .hbm, ⟨35, _⟩ => ⟨S1600000, .i32⟩
  | .hbm, ⟨36, _⟩ => ⟨S1600000x1, .i32⟩
  | .hbm, ⟨37, _⟩ => ⟨S1600000x64, .f32⟩
  | .hbm, ⟨38, _⟩ => ⟨S_, .f32⟩
  | .hbm, ⟨39, _⟩ => ⟨S100000x64, .f32⟩
  | .hbm, ⟨40, _⟩ => ⟨S1600000x1, .i32⟩
  | .hbm, ⟨41, _⟩ => ⟨S100000x64, .f32⟩
  | .hbm, ⟨42, _⟩ => ⟨S100000x64, .f32⟩
  | .hbm, ⟨43, _⟩ => ⟨S1x64, .f32⟩
  | .hbm, ⟨44, _⟩ => ⟨S100000x64, .f32⟩
  | .hbm, ⟨45, _⟩ => ⟨S100000x64, .f32⟩
  | .hbm, ⟨46, _⟩ => ⟨S_, .f32⟩
  | .hbm, ⟨47, _⟩ => ⟨S100000x64, .f32⟩
  | .hbm, ⟨48, _⟩ => ⟨S100000x64, .f32⟩
  | .hbm, ⟨49, _⟩ => ⟨S100000x32, .f32⟩
  | .hbm, ⟨50, _⟩ => ⟨S1x32, .f32⟩
  | .hbm, ⟨51, _⟩ => ⟨S100000x32, .f32⟩
  | .hbm, ⟨52, _⟩ => ⟨S100000x32, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_c_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_call0_cst : Ref sig .tc := ⟨.hbm, 26, rfl⟩
abbrev main_call0_v0 : Ref sig .tc := ⟨.hbm, 27, rfl⟩
abbrev main_v14 : Ref sig .tc := ⟨.hbm, 28, rfl⟩
abbrev main_c_1 : Ref sig .tc := ⟨.hbm, 29, rfl⟩
abbrev main_v15 : Ref sig .tc := ⟨.hbm, 30, rfl⟩
abbrev main_v16 : Ref sig .tc := ⟨.hbm, 31, rfl⟩
abbrev main_c_2 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_cst_3 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_call1_cst : Ref sig .tc := ⟨.hbm, 46, rfl⟩
abbrev main_call1_v0 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x64_S100000x64_1_0_0_1_n_n_wf : DotDims.WF S100000x64 S64x64 S100000x64 [1] [0] [0] [1] [] []
  dot_S100000x64_S64x32_S100000x32_1_0_0_1_n_n_wf : DotDims.WF S100000x64 S64x32 S100000x32 [1] [0] [0] [1] [] []

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S100000x64_S64x32_S100000x32_1_0_0_1_n_n : DotDims S100000x64 S64x32 S100000x32 where
  lhsContracting := [1]
  rhsContracting := [0]
  lhsNonContracting := [0]
  rhsNonContracting := [1]
  lhsBatch := []
  rhsBatch := []
  wf := dot_S100000x64_S64x32_S100000x32_1_0_0_1_n_n_wf

class Facts : Prop extends Facts₀ where

variable [Facts]
-- ==== Proof.NamedRun.lean ====
/-
  The idealized kernel's run with its result array named.

  The program is two kernel regions among stretches of host operations. Every weakly fair execution terminates, and in
  the final memory the result array holds what the last region's write-backs leave — the last boundary's contents at the
  result's buffer — while the nine argument arrays are as launched. The boundary contents are a fold through the
  program: a host stretch applies its operations, a region replaces its arrays by what its pipeline leaves.
-/
import proofs.«167699_j35021163331781_2_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result array ends at the last boundary's contents at its buffer, the arguments unchanged. -/
theorem run : θ_run defs (onTc (τ := τ) (main (F := F))) ⟨m, fun _ => 0, ρ⟩ (fun r => ∀ c : Dev nD,
      r.2.mem ((c.tc : Thread nD τ).loc main_v24) = W4 m ρ c (Proc.devRef .tc main_v24)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v24 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c)⟩)

end Cert.KernelIdeal.Named

end
-- ==== Proof.LibPlainDot.lean ====
/-
  A plain matrix product read at one entry.

  For the dimension numbers of an `M × K` by `K × N` product (the left operand contracted on its columns, the
  right on its rows, no batch axis) the entry at row `p`, column `q` of a `tpu.matmul` into the zero
  accumulator, and of the host's `dot_general`, is at the ideal values the sum over `k` of the left operand at
  `(p, k)` times the right operand at `(k, q)`. The contraction index of the dimension numbers is re-indexed by
  its one coordinate, so the sum runs over the literal `Fin K`.
-/
import Idealize.ShloMosaic.Lib.ValueIdx
import Idealize.ShloMosaic.PureOps.Ideal.Laws

noncomputable section

open scoped BigOperators

namespace Cert.Lib.PlainDot

open Idealize.ShloMosaic Idealize.ShloMosaic.ValueIdx

variable {M K N : Nat}

/-- The left operand's index at output entry `(p, q)` and contraction position `k` is `(p, k)`. -/
theorem lhsIdx_plain (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  apply Fin.ext
  match a with
  | ⟨0, _⟩ => rfl
  | ⟨1, _⟩ => exact ((DotDims.plain M K N).lhsIdx_val_of_single rfl (ix2 p q) _).trans hk

/-- The right operand's index at output entry `(p, q)` and contraction position `k` is `(k, q)`. -/
theorem rhsIdx_plain (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  apply Fin.ext
  match a with
  | ⟨0, _⟩ => exact ((DotDims.plain M K N).rhsIdx_val_of_single rfl (ix2 p q) _).trans hk
  | ⟨1, _⟩ => rfl

/-- A `tpu.matmul` into the zero accumulator, at entry `(p, q)`. -/
theorem matmul_zero_apply {φ₁ φ₂ : FTy} (prec : Option ContractPrecision)
    (l : FVec Ideal ⟨2, ![M, K]⟩ φ₁) (r : FVec Ideal ⟨2, ![K, N]⟩ φ₂) (p : Fin M) (q : Fin N) :
    FloatOps.matmul (DotDims.plain M K N) prec l r (constant ⟨2, ![M, N]⟩ .f32 0x00000000#32) (ix2 p q)
      = ∑ k : Fin K, l (ix2 p k) * r (ix2 k q) := by
  rw [Ideal.matmul_constant_zero_apply, ← Equiv.sum_comp (contrEquiv1 (DotDims.plain M K N) K rfl rfl).symm]
  exact Finset.sum_congr rfl fun k _ => by rw [lhsIdx_plain, rhsIdx_plain]

/-- The host's `dot_general`, at entry `(p, q)`. -/
theorem dotGeneral_apply {φ₁ φ₂ : FTy} (prec : Option ContractPrecision) (sched : HostSchedule)
    (l : FVec Ideal ⟨2, ![M, K]⟩ φ₁) (r : FVec Ideal ⟨2, ![K, N]⟩ φ₂) (p : Fin M) (q : Fin N) :
    FloatOps.dotGeneral (DotDims.plain M K N) prec sched l r (ix2 p q) = ∑ k : Fin K, l (ix2 p k) * r (ix2 k q) := by
  rw [Ideal.dotGeneral_apply, ← Equiv.sum_comp (contrEquiv1 (DotDims.plain M K N) K rfl rfl).symm]
  exact Finset.sum_congr rfl fun k _ => by rw [lhsIdx_plain, rhsIdx_plain]

end Cert.Lib.PlainDot

end
-- ==== Proof.LibBiasDot.lean ====
/-
  A matrix product with a bias row added, read at one entry.

  The linear-layer body that many kernels share: an `M × K` by `K × N` product into the zero accumulator, plus a
  bias vector of length `N` viewed as a `1 × N` row and repeated down the `M` rows. At the ideal values its entry at
  row `p`, column `q` is the sum over `k` of the left operand at `(p, k)` times the right operand at `(k, q)`, plus
  the bias at `q`. `lin` names that whole-array function.
-/
import Idealize.ShloMosaic.Lib.ValueIdx
import Idealize.ShloMosaic.Lib.Pipeline.Value
import Idealize.ShloMosaic.PureOps.Ideal.Laws
import proofs.«167699_j35021163331781_2_alg».proof.Proof.LibPlainDot

noncomputable section

open scoped BigOperators

namespace Cert.Lib.BiasDot

open Idealize.ShloMosaic Idealize.ShloMosaic.ValueIdx

variable {M K N : Nat}

/-- The linear layer as one function of its three arrays: entry `(p, q)` is `∑ k, A (p, k) · W (k, q) + b q`. -/
def lin (A : (⟨2, ![M, K]⟩ : Shape).Idx → EReal) (W : (⟨2, ![K, N]⟩ : Shape).Idx → EReal)
    (b : (⟨1, ![N]⟩ : Shape).Idx → EReal) : (⟨2, ![M, N]⟩ : Shape).Idx → EReal :=
  fun i => (∑ k : Fin K, A (ix2 (i 0) k) * W (ix2 k (i 1))) + b (ix1 (i 1))

theorem lin_apply (A : (⟨2, ![M, K]⟩ : Shape).Idx → EReal) (W : (⟨2, ![K, N]⟩ : Shape).Idx → EReal)
    (b : (⟨1, ![N]⟩ : Shape).Idx → EReal) (p : Fin M) (q : Fin N) :
    lin A W b (ix2 p q) = (∑ k : Fin K, A (ix2 p k) * W (ix2 k q)) + b (ix1 q) := rfl

/-- A vector of length `N` viewed as a `1 × N` row and repeated down `M` rows reads, at `(p, q)`, the vector at `q`. -/
theorem rowBroadcast_apply {α : Type} (b : (⟨1, ![N]⟩ : Shape).Idx → α)
    (hc : (⟨1, ![N]⟩ : Shape).ShapeCasts ⟨2, ![1, N]⟩) (hb : (⟨2, ![1, N]⟩ : Shape).Broadcasts ⟨2, ![M, N]⟩)
    (p : Fin M) (q : Fin N) :
    broadcastTo ⟨2, ![M, N]⟩ (shapeCast ⟨2, ![1, N]⟩ b hc) hb (ix2 p q) = b (ix1 q) := by
  refine (broadcastTo_apply _ hb (ix2 p q) (ix2 (0 : Fin 1) q) (fun a => ?_)).trans ?_
  · match a with
    | ⟨0, _⟩ => exact (if_pos rfl).symm
    | ⟨1, _⟩ =>
      show q.val = if N = 1 then 0 else q.val
      split
      · have := q.isLt; omega
      · rfl
  · refine (shapeCast_addUnit_apply ![N] b hc (ix2 (0 : Fin 1) q)).trans (congrArg b ?_)
    funext a
    match a with
    | ⟨0, _⟩ => rfl

/-- The product into zero plus the repeated bias row, at entry `(p, q)`. -/
theorem biasDot_apply {φ₁ φ₂ : FTy} (prec : Option ContractPrecision)
    (l : FVec Ideal ⟨2, ![M, K]⟩ φ₁) (r : FVec Ideal ⟨2, ![K, N]⟩ φ₂) (b : FVec Ideal ⟨1, ![N]⟩ .f32)
    (hc : (⟨1, ![N]⟩ : Shape).ShapeCasts ⟨2, ![1, N]⟩) (hb : (⟨2, ![1, N]⟩ : Shape).Broadcasts ⟨2, ![M, N]⟩)
    (p : Fin M) (q : Fin N) :
    addf (FloatOps.matmul (DotDims.plain M K N) prec l r (constant ⟨2, ![M, N]⟩ .f32 0x00000000#32))
        (broadcastTo ⟨2, ![M, N]⟩ (shapeCast ⟨2, ![1, N]⟩ b hc) hb) (ix2 p q)
      = (∑ k : Fin K, l (ix2 p k) * r (ix2 k q)) + b (ix1 q) := by
  rw [addf_apply, Cert.Lib.PlainDot.matmul_zero_apply, rowBroadcast_apply]

end Cert.Lib.BiasDot

end
-- ==== Proof.LibDense.lean ====
/-
  The dense layers of the network as whole-array functions on the extended reals, and the host's spelling of each.

  A matrix with `M` rows and `N` columns is a function of its two coordinates. The layers are: a product plus a bias
  row (`lin`, from the bias-and-product module), the same with the contraction split over two pairs of operands
  (`lin2`), the plain product (`mm`), adding a row to every row of a matrix (`addRow`), and the positive part
  (`relu`). The host writes a layer as a `dot_general`, the bias broadcast in two steps to the matrix's shape,
  an addition, and a maximum with a broadcast zero; entry by entry these are the functions above.

  Two identities join the kernel's arrangement to the host's. A product whose left operand is two blocks set side by
  side, against a weight matrix, is the sum of the two blocks' products against the matching row ranges of the weight:
  the sum over the contraction index splits at the seam, which needs only that addition of extended reals is
  associative and commutative. And a product plus a row of zeros is the product.
-/
import Idealize.ShloMosaic.Lib.ValueIdx
import Idealize.ShloMosaic.Lib.Pipeline.Value
import Idealize.ShloMosaic.PureOps.Ideal.Laws
import proofs.«167699_j35021163331781_2_alg».proof.Proof.LibBiasDot

noncomputable section

open scoped BigOperators

namespace Cert.Lib.Dense

open Idealize.ShloMosaic Idealize.ShloMosaic.ValueIdx Cert.Lib.BiasDot

variable {M K K' N : Nat}

/-- The positive part, entry by entry. -/
def relu {s : Shape} (f : s.Idx → EReal) : s.Idx → EReal := fun i => max (f i) 0

/-- A row added to every row of a matrix. -/
def addRow (X : (⟨2, ![M, N]⟩ : Shape).Idx → EReal) (B : (⟨1, ![N]⟩ : Shape).Idx → EReal) :
    (⟨2, ![M, N]⟩ : Shape).Idx → EReal := fun i => X i + B (ix1 (i 1))

/-- The plain product: entry `(p, q)` is `∑ k, A (p, k) · W (k, q)`. -/
def mm (A : (⟨2, ![M, K]⟩ : Shape).Idx → EReal) (W : (⟨2, ![K, N]⟩ : Shape).Idx → EReal) :
    (⟨2, ![M, N]⟩ : Shape).Idx → EReal := fun i => ∑ k : Fin K, A (ix2 (i 0) k) * W (ix2 k (i 1))

/-- Two products added, plus a bias row: entry `(p, q)` is `∑ k, A (p, k) · Wa (k, q) + ∑ k, C (p, k) · Wb (k, q) + b q`. -/
def lin2 (A : (⟨2, ![M, K]⟩ : Shape).Idx → EReal) (Wa : (⟨2, ![K, N]⟩ : Shape).Idx → EReal)
    (C : (⟨2, ![M, K']⟩ : Shape).Idx → EReal) (Wb : (⟨2, ![K', N]⟩ : Shape).Idx → EReal)
    (B : (⟨1, ![N]⟩ : Shape).Idx → EReal) : (⟨2, ![M, N]⟩ : Shape).Idx → EReal :=
  fun i => ((∑ k : Fin K, A (ix2 (i 0) k) * Wa (ix2 k (i 1))) + (∑ k : Fin K', C (ix2 (i 0) k) * Wb (ix2 k (i 1))))
    + B (ix1 (i 1))

/-! ## The host's spelling, read at an entry -/

/-- A vector of length `N` broadcast to a `1 × N` row and then down `M` rows reads, at `(p, q)`, the vector at `q`. -/
theorem hostRow_apply {α : Type} (B : (⟨1, ![N]⟩ : Shape).Idx → α)
    (h1 : (⟨1, ![N]⟩ : Shape).BroadcastsInDim ⟨2, ![1, N]⟩ ![1])
    (h2 : (⟨2, ![1, N]⟩ : Shape).BroadcastsInDim ⟨2, ![M, N]⟩ ![0, 1]) (p : Fin M) (q : Fin N) :
    broadcastInDim ⟨2, ![M, N]⟩ ![0, 1] h2 (broadcastInDim ⟨2, ![1, N]⟩ ![1] h1 B) (ix2 p q) = B (ix1 q) := by
  refine (broadcastInDim_apply ![0, 1] h2 _ (ix2 p q) (ix2 (0 : Fin 1) q) (fun a => ?_)).trans ?_
  · match a with
    | ⟨0, _⟩ => exact (if_pos rfl).symm
    | ⟨1, _⟩ =>
      show q.val = if N = 1 then 0 else q.val
      split
      · have := q.isLt; omega
      · rfl
  · refine broadcastInDim_apply ![1] h1 B (ix2 (0 : Fin 1) q) (ix1 q) (fun a => ?_)
    match a with
    | ⟨0, _⟩ =>
      show q.val = if N = 1 then 0 else q.val
      split
      · have := q.isLt; omega
      · rfl

/-- The zero scalar broadcast to any shape is zero everywhere. -/
theorem hostZero_apply {t : Shape} (dims : Fin 0 → Fin t.rank) (h : (⟨0, ![]⟩ : Shape).BroadcastsInDim t dims) (j : t.Idx) :
    broadcastInDim t dims h (constant (F := Ideal) ⟨0, ![]⟩ .f32 0x00000000#32) j = 0 := by
  refine (broadcastInDim_apply (s := ⟨0, ![]⟩) dims h _ j (fun a => a.elim0) (fun a => a.elim0)).trans ?_
  rw [constant_apply, Ideal.ofBits_zero_f32]

/-- The host's linear layer with the positive part: product, bias broadcast in two steps, sum, maximum with zero. -/
theorem host_lin_relu (d : DotDims ⟨2, ![M, K]⟩ ⟨2, ![K, N]⟩ ⟨2, ![M, N]⟩) (hd : d = DotDims.plain M K N)
    (X : FVec Ideal ⟨2, ![M, K]⟩ .f32) (W : FVec Ideal ⟨2, ![K, N]⟩ .f32) (B : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1])
    (dims : Fin 0 → Fin 2) (h0 : (⟨0, ![]⟩ : Shape).BroadcastsInDim ⟨2, ![M, N]⟩ dims) :
    maximumf (addf (Host.dotGeneral d none X W)
        (broadcastInDim ⟨2, ![M, N]⟩ ![0, 1] h2 (broadcastInDim ⟨2, ![1, N]⟩ ![1] h1 B)))
      (broadcastInDim ⟨2, ![M, N]⟩ dims h0 (constant ⟨0, ![]⟩ .f32 0x00000000#32))
    = relu (lin X W B) := by
  subst hd
  funext i
  obtain ⟨p, q, rfl⟩ : ∃ (p : Fin M) (q : Fin N), i = ix2 p q := ⟨i 0, i 1, eq_ix2 i⟩
  rw [maximumf_apply, addf_apply, hostZero_apply, hostRow_apply]
  exact congrArg (fun z => max (z + B (ix1 q)) 0) (Cert.Lib.PlainDot.dotGeneral_apply none _ X W p q)

/-- The host's bias-and-positive-part layer. -/
theorem host_addRow_relu (X : FVec Ideal ⟨2, ![M, N]⟩ .f32) (B : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1])
    (dims : Fin 0 → Fin 2) (h0 : (⟨0, ![]⟩ : Shape).BroadcastsInDim ⟨2, ![M, N]⟩ dims) :
    maximumf (addf X (broadcastInDim ⟨2, ![M, N]⟩ ![0, 1] h2 (broadcastInDim ⟨2, ![1, N]⟩ ![1] h1 B)))
      (broadcastInDim ⟨2, ![M, N]⟩ dims h0 (constant ⟨0, ![]⟩ .f32 0x00000000#32))
    = relu (addRow X B) := by
  funext i
  obtain ⟨p, q, rfl⟩ : ∃ (p : Fin M) (q : Fin N), i = ix2 p q := ⟨i 0, i 1, eq_ix2 i⟩
  rw [maximumf_apply, addf_apply, hostZero_apply, hostRow_apply]
  rfl

/-- The host's bias layer. -/
theorem host_addRow (X : FVec Ideal ⟨2, ![M, N]⟩ .f32) (B : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1]) :
    addf X (broadcastInDim ⟨2, ![M, N]⟩ ![0, 1] h2 (broadcastInDim ⟨2, ![1, N]⟩ ![1] h1 B)) = addRow X B := by
  funext i
  obtain ⟨p, q, rfl⟩ : ∃ (p : Fin M) (q : Fin N), i = ix2 p q := ⟨i 0, i 1, eq_ix2 i⟩
  rw [addf_apply, hostRow_apply]
  rfl

/-- The host's plain product. -/
theorem host_mm (d : DotDims ⟨2, ![M, K]⟩ ⟨2, ![K, N]⟩ ⟨2, ![M, N]⟩) (hd : d = DotDims.plain M K N)
    (X : FVec Ideal ⟨2, ![M, K]⟩ .f32) (W : FVec Ideal ⟨2, ![K, N]⟩ .f32) :
    Host.dotGeneral d none X W = mm X W := by
  subst hd
  funext i
  obtain ⟨p, q, rfl⟩ : ∃ (p : Fin M) (q : Fin N), i = ix2 p q := ⟨i 0, i 1, eq_ix2 i⟩
  exact Cert.Lib.PlainDot.dotGeneral_apply none _ X W p q

/-! ## A left operand of two blocks side by side -/

section Concat

variable (A : (⟨2, ![M, K]⟩ : Shape).Idx → EReal) (C : (⟨2, ![M, K']⟩ : Shape).Idx → EReal)
  (Wc : (⟨2, ![K + K', N]⟩ : Shape).Idx → EReal)
  (hcat : Shape.Concatenates [(⟨2, ![M, K]⟩ : Shape), ⟨2, ![M, K']⟩] ⟨2, ![M, K + K']⟩ 1)
  (hs1 : (⟨2, ![K + K', N]⟩ : Shape).Slices ![0, 0] ⟨2, ![K, N]⟩)
  (hs2 : (⟨2, ![K + K', N]⟩ : Shape).Slices ![K, 0] ⟨2, ![K', N]⟩)

/-- Left of the seam the two blocks set side by side read the first block. -/
theorem concat_left (p : Fin M) (k : Fin K) :
    concatenate ⟨2, ![M, K + K']⟩ 1 [⟨⟨2, ![M, K]⟩, A⟩, ⟨⟨2, ![M, K']⟩, C⟩] hcat (ix2 p (Fin.castAdd K' k)) = A (ix2 p k) :=
  concatenate_pair_apply_left 1 A C hcat _ rfl (ix2 p k) (fun b => by
    match b with
    | ⟨0, _⟩ => rfl
    | ⟨1, _⟩ => rfl)

/-- Right of the seam they read the second block, the column counted from the seam. -/
theorem concat_right (p : Fin M) (k : Fin K') :
    concatenate ⟨2, ![M, K + K']⟩ 1 [⟨⟨2, ![M, K]⟩, A⟩, ⟨⟨2, ![M, K']⟩, C⟩] hcat (ix2 p (Fin.natAdd K k)) = C (ix2 p k) :=
  concatenate_pair_apply_right 1 A C hcat _ rfl rfl (ix2 p k) (fun b hb => by
    match b, hb with
    | ⟨0, _⟩, _ => rfl
    | ⟨1, _⟩, h => exact absurd rfl h) (by show k.val + K = K + k.val; omega)

/-- The first `K` rows of the weight. -/
theorem slice_top (k : Fin K) (q : Fin N) :
    extractStridedSlice ⟨2, ![K, N]⟩ ![0, 0] Wc hs1 (ix2 k q) = Wc (ix2 (Fin.castAdd K' k) q) :=
  extractStridedSlice_apply ![0, 0] Wc hs1 (ix2 k q) (ix2 (Fin.castAdd K' k) q) (fun a => by
    match a with
    | ⟨0, _⟩ => show k.val = 0 + k.val; omega
    | ⟨1, _⟩ => show q.val = 0 + q.val; omega)

/-- The last `K'` rows of the weight. -/
theorem slice_bot (k : Fin K') (q : Fin N) :
    extractStridedSlice ⟨2, ![K', N]⟩ ![K, 0] Wc hs2 (ix2 k q) = Wc (ix2 (Fin.natAdd K k) q) :=
  extractStridedSlice_apply ![K, 0] Wc hs2 (ix2 k q) (ix2 (Fin.natAdd K k) q) (fun a => by
    match a with
    | ⟨0, _⟩ => show K + k.val = K + k.val; rfl
    | ⟨1, _⟩ => show q.val = 0 + q.val; omega)

/-- The sum over the contraction index of the side-by-side operand against the weight splits at the seam into the two
    blocks' sums against the two row ranges of the weight. -/
theorem sum_concat (p : Fin M) (q : Fin N) :
    (∑ k : Fin (K + K'), concatenate ⟨2, ![M, K + K']⟩ 1 [⟨⟨2, ![M, K]⟩, A⟩, ⟨⟨2, ![M, K']⟩, C⟩] hcat (ix2 p k) * Wc (ix2 k q))
      = (∑ k : Fin K, A (ix2 p k) * extractStridedSlice ⟨2, ![K, N]⟩ ![0, 0] Wc hs1 (ix2 k q))
        + (∑ k : Fin K', C (ix2 p k) * extractStridedSlice ⟨2, ![K', N]⟩ ![K, 0] Wc hs2 (ix2 k q)) := by
  rw [Fin.sum_univ_add]
  refine congrArg₂ (· + ·) (Finset.sum_congr rfl fun k _ => ?_) (Finset.sum_congr rfl fun k _ => ?_)
  · rw [concat_left, slice_top]
  · rw [concat_right, slice_bot]

end Concat

/-- The host's second layer: the side-by-side operand against the whole weight, bias, positive part — is the two-product
    layer of the two blocks against the two row ranges of the weight. -/
theorem host_concat_lin2_relu {Kt : Nat} (hK : Kt = K + K')
    (d : DotDims ⟨2, ![M, Kt]⟩ ⟨2, ![Kt, N]⟩ ⟨2, ![M, N]⟩) (hd : d = hK ▸ DotDims.plain M (K + K') N)
    (A : FVec Ideal ⟨2, ![M, K]⟩ .f32) (C : FVec Ideal ⟨2, ![M, K']⟩ .f32) (Wc : FVec Ideal ⟨2, ![Kt, N]⟩ .f32)
    (B : FVec Ideal ⟨1, ![N]⟩ .f32)
    (hcat : Shape.Concatenates [(⟨2, ![M, K]⟩ : Shape), ⟨2, ![M, K']⟩] ⟨2, ![M, Kt]⟩ 1)
    (hs1 : (⟨2, ![Kt, N]⟩ : Shape).Slices ![0, 0] ⟨2, ![K, N]⟩)
    (hs2 : (⟨2, ![Kt, N]⟩ : Shape).Slices ![K, 0] ⟨2, ![K', N]⟩)
    (h1 : (⟨1, ![N]⟩ : Shape).BroadcastsInDim ⟨2, ![1, N]⟩ ![1])
    (h2 : (⟨2, ![1, N]⟩ : Shape).BroadcastsInDim ⟨2, ![M, N]⟩ ![0, 1])
    (dims : Fin 0 → Fin 2) (h0 : (⟨0, ![]⟩ : Shape).BroadcastsInDim ⟨2, ![M, N]⟩ dims) :
    maximumf (addf (Host.dotGeneral d none
          (concatenate ⟨2, ![M, Kt]⟩ 1 [⟨⟨2, ![M, K]⟩, A⟩, ⟨⟨2, ![M, K']⟩, C⟩] hcat) Wc)
        (broadcastInDim ⟨2, ![M, N]⟩ ![0, 1] h2 (broadcastInDim ⟨2, ![1, N]⟩ ![1] h1 B)))
      (broadcastInDim ⟨2, ![M, N]⟩ dims h0 (constant ⟨0, ![]⟩ .f32 0x00000000#32))
    = relu (lin2 A (extractStridedSlice ⟨2, ![K, N]⟩ ![0, 0] Wc hs1) C (extractStridedSlice ⟨2, ![K', N]⟩ ![K, 0] Wc hs2) B) := by
  subst hK
  subst hd
  funext i
  obtain ⟨p, q, rfl⟩ : ∃ (p : Fin M) (q : Fin N), i = ix2 p q := ⟨i 0, i 1, eq_ix2 i⟩
  rw [maximumf_apply, addf_apply, hostZero_apply, hostRow_apply]
  refine congrArg (fun z => max (z + B (ix1 q)) 0) ?_
  exact (Cert.Lib.PlainDot.dotGeneral_apply none _ _ Wc p q).trans (sum_concat A C Wc hcat hs1 hs2 p q)

/-! ## A zero bias row -/

/-- A product plus a row of zeros is the product. -/
theorem lin_zero (X : (⟨2, ![M, K]⟩ : Shape).Idx → EReal) (W : (⟨2, ![K, N]⟩ : Shape).Idx → EReal)
    (Z : (⟨1, ![N]⟩ : Shape).Idx → EReal) (hZ : ∀ j, Z j = 0) : lin X W Z = mm X W := by
  funext i
  show (∑ k : Fin K, X (ix2 (i 0) k) * W (ix2 k (i 1))) + Z (ix1 (i 1)) = _
  rw [hZ, add_zero]
  rfl

end Cert.Lib.Dense

end
-- ==== Proof.LibRowLayers.lean ====
/-
  The two dense layers a vector unit computes on a block of rows, as whole-array functions on the extended reals.

  A block of `M` rows with `K` features, a `K × N` weight and a `1 × N` bias row give `relu (x · W + b)`: entry
  `(p, q)` is the larger of `0` and `∑ k, x (p, k) · W (k, q) + b (0, q)`. The narrowing of the operands to a shorter float
  format before the product is the identity on extended reals, the product accumulates into zero, and the bias row is
  repeated down the rows. A second product and bias on top of that, without the positive part, gives the output layer.

  An entry of either layer depends on one row of the block only, so a block of rows of a taller array computes the
  same entries as the layer of the whole array at those rows.
-/
import Idealize.ShloMosaic.Lib.ValueIdx
import Idealize.ShloMosaic.Lib.Pipeline.Value
import Idealize.ShloMosaic.PureOps.Ideal.Laws
import proofs.«167699_j35021163331781_2_alg».proof.Proof.LibDense

noncomputable section

open scoped BigOperators

namespace Cert.Lib.RowLayers

open Idealize.ShloMosaic Idealize.ShloMosaic.ValueIdx Cert.Lib.BiasDot Cert.Lib.Dense

variable {m M K N N' : Nat}

/-- A `1 × N` row read as a vector of length `N`. -/
def rowVec (R : (⟨2, ![1, N]⟩ : Shape).Idx → EReal) : (⟨1, ![N]⟩ : Shape).Idx → EReal :=
  fun j => R (ix2 (0 : Fin 1) (j 0))

/-- A vector of length `N` reshaped to a `1 × N` row and read back as a vector is the vector. -/
theorem rowVec_reshape (b : (⟨1, ![N]⟩ : Shape).Idx → EReal) (hc : (⟨1, ![N]⟩ : Shape).ShapeCasts ⟨2, ![1, N]⟩) :
    rowVec (shapeCast ⟨2, ![1, N]⟩ b hc) = b := by
  funext j
  refine (shapeCast_addUnit_apply ![N] b hc (ix2 (0 : Fin 1) (j 0))).trans (congrArg b ?_)
  funext a
  match a with
  | ⟨0, _⟩ => rfl

/-- A `1 × N` row repeated down `M` rows reads, at `(p, q)`, the row at `q`. -/
theorem rowRepeat_apply {α : Type} (R : (⟨2, ![1, N]⟩ : Shape).Idx → α)
    (hc : (⟨2, ![1, N]⟩ : Shape).ShapeCasts ⟨2, ![1, N]⟩) (hb : (⟨2, ![1, N]⟩ : Shape).Broadcasts ⟨2, ![M, N]⟩)
    (p : Fin M) (q : Fin N) :
    broadcastTo ⟨2, ![M, N]⟩ (shapeCast ⟨2, ![1, N]⟩ R hc) hb (ix2 p q) = R (ix2 (0 : Fin 1) q) := by
  rw [shapeCast_self]
  refine broadcastTo_apply _ hb (ix2 p q) (ix2 (0 : Fin 1) q) (fun a => ?_)
  match a with
  | ⟨0, _⟩ => exact (if_pos rfl).symm
  | ⟨1, _⟩ =>
    show q.val = if N = 1 then 0 else q.val
    split
    · have := q.isLt; omega
    · rfl

/-- The product into zero plus the repeated bias row is the linear layer of the block, the weight and the row. -/
theorem linLayer_eq (d : DotDims ⟨2, ![M, K]⟩ ⟨2, ![K, N]⟩ ⟨2, ![M, N]⟩) (hd : d = DotDims.plain M K N)
    (x0 : FVec Ideal ⟨2, ![M, K]⟩ .f32) (x1 : FVec Ideal ⟨2, ![K, N]⟩ .f32) (x2 : FVec Ideal ⟨2, ![1, N]⟩ .f32)
    (hb0 hb1 : FTy.bf16.bits < FTy.f32.bits)
    (h2 : (⟨2, ![1, N]⟩ : Shape).ShapeCasts ⟨2, ![1, N]⟩) (hbr : (⟨2, ![1, N]⟩ : Shape).Broadcasts ⟨2, ![M, N]⟩) :
    addf (FloatOps.matmul d none (truncf .bf16 x0 hb0) (truncf .bf16 x1 hb1) (constant ⟨2, ![M, N]⟩ .f32 0x00000000#32))
        (broadcastTo ⟨2, ![M, N]⟩ (shapeCast ⟨2, ![1, N]⟩ x2 h2) hbr)
      = lin x0 x1 (rowVec x2) := by
  subst hd
  funext i
  obtain ⟨p, q, rfl⟩ : ∃ (p : Fin M) (q : Fin N), i = ix2 p q := ⟨i 0, i 1, eq_ix2 i⟩
  rw [addf_apply, rowRepeat_apply, Cert.Lib.PlainDot.matmul_zero_apply]
  rfl

/-- The same followed by the maximum with a splat zero is the positive part of the linear layer. -/
theorem reluLayer_eq (d : DotDims ⟨2, ![M, K]⟩ ⟨2, ![K, N]⟩ ⟨2, ![M, N]⟩) (hd : d = DotDims.plain M K N)
    (x0 : FVec Ideal ⟨2, ![M, K]⟩ .f32) (x1 : FVec Ideal ⟨2, ![K, N]⟩ .f32) (x2 : FVec Ideal ⟨2, ![1, N]⟩ .f32)
    (hb0 hb1 : FTy.bf16.bits < FTy.f32.bits)
    (h2 : (⟨2, ![1, N]⟩ : Shape).ShapeCasts ⟨2, ![1, N]⟩) (hbr : (⟨2, ![1, N]⟩ : Shape).Broadcasts ⟨2, ![M, N]⟩) :
    maximumf (addf (FloatOps.matmul d none (truncf .bf16 x0 hb0) (truncf .bf16 x1 hb1) (constant ⟨2, ![M, N]⟩ .f32 0x00000000#32))
        (broadcastTo ⟨2, ![M, N]⟩ (shapeCast ⟨2, ![1, N]⟩ x2 h2) hbr))
      (broadcast ⟨2, ![M, N]⟩ (Scalar.ofBits (F := Ideal) .f32 0x00000000#32))
      = relu (lin x0 x1 (rowVec x2)) := by
  rw [linLayer_eq d hd x0 x1 x2 hb0 hb1 h2 hbr]
  funext i
  rw [maximumf_apply, broadcast_apply]
  show max _ (Ideal.ofBits .f32 0x00000000#32) = _
  rw [Ideal.ofBits_zero_f32]
  rfl

/-- The first layer on a block of rows is the first layer of the whole array at those rows: entry `j` of the block's
    layer is entry `i` of the array's when the block's row `j 0` is the array's row `i 0` and the columns agree. -/
theorem layer_block (x0 : (⟨2, ![m, K]⟩ : Shape).Idx → EReal) (x1 : (⟨2, ![K, N]⟩ : Shape).Idx → EReal)
    (x2 : (⟨2, ![1, N]⟩ : Shape).Idx → EReal)
    (A : (⟨2, ![M, K]⟩ : Shape).Idx → EReal) (W : (⟨2, ![K, N]⟩ : Shape).Idx → EReal) (R : (⟨2, ![1, N]⟩ : Shape).Idx → EReal)
    (j : (⟨2, ![m, N]⟩ : Shape).Idx) (i : (⟨2, ![M, N]⟩ : Shape).Idx)
    (h0 : ∀ k : Fin K, x0 (ix2 (j 0) k) = A (ix2 (i 0) k)) (h1 : ∀ k : Fin K, x1 (ix2 k (j 1)) = W (ix2 k (i 1)))
    (h2 : x2 (ix2 (0 : Fin 1) (j 1)) = R (ix2 (0 : Fin 1) (i 1))) :
    relu (lin x0 x1 (rowVec x2)) j = relu (lin A W (rowVec R)) i := by
  show max ((∑ k : Fin K, x0 (ix2 (j 0) k) * x1 (ix2 k (j 1))) + x2 (ix2 (0 : Fin 1) (j 1))) 0
    = max ((∑ k : Fin K, A (ix2 (i 0) k) * W (ix2 k (i 1))) + R (ix2 (0 : Fin 1) (i 1))) 0
  rw [h2]
  exact congrArg (fun z => max (z + R (ix2 (0 : Fin 1) (i 1))) 0) (Finset.sum_congr rfl fun k _ => by rw [h0 k, h1 k])

/-- The two layers on a block of rows are the two layers of the whole array at those rows. -/
theorem head_block (x0 : (⟨2, ![m, K]⟩ : Shape).Idx → EReal) (x1 : (⟨2, ![K, N]⟩ : Shape).Idx → EReal)
    (x2 : (⟨2, ![1, N]⟩ : Shape).Idx → EReal) (x3 : (⟨2, ![N, N']⟩ : Shape).Idx → EReal) (x4 : (⟨2, ![1, N']⟩ : Shape).Idx → EReal)
    (A : (⟨2, ![M, K]⟩ : Shape).Idx → EReal) (W : (⟨2, ![K, N]⟩ : Shape).Idx → EReal) (R : (⟨2, ![1, N]⟩ : Shape).Idx → EReal)
    (W' : (⟨2, ![N, N']⟩ : Shape).Idx → EReal) (R' : (⟨2, ![1, N']⟩ : Shape).Idx → EReal)
    (j : (⟨2, ![m, N']⟩ : Shape).Idx) (i : (⟨2, ![M, N']⟩ : Shape).Idx)
    (h0 : ∀ k : Fin K, x0 (ix2 (j 0) k) = A (ix2 (i 0) k)) (h1 : x1 = W) (h2 : x2 = R)
    (h3 : ∀ k : Fin N, x3 (ix2 k (j 1)) = W' (ix2 k (i 1)))
    (h4 : x4 (ix2 (0 : Fin 1) (j 1)) = R' (ix2 (0 : Fin 1) (i 1))) :
    lin (relu (lin x0 x1 (rowVec x2))) x3 (rowVec x4) j = lin (relu (lin A W (rowVec R))) W' (rowVec R') i := by
  subst h1
  subst h2
  show (∑ k : Fin N, relu (lin x0 x1 (rowVec x2)) (ix2 (j 0) k) * x3 (ix2 k (j 1))) + x4 (ix2 (0 : Fin 1) (j 1))
    = (∑ k : Fin N, relu (lin A x1 (rowVec x2)) (ix2 (i 0) k) * W' (ix2 k (i 1))) + R' (ix2 (0 : Fin 1) (i 1))
  rw [h4]
  refine congrArg (fun z => z + R' (ix2 (0 : Fin 1) (i 1))) (Finset.sum_congr rfl fun k _ => ?_)
  rw [h3 k]
  exact congrArg (fun z => z * W' (ix2 k (i 1)))
    (layer_block x0 x1 x2 A x1 x2 (ix2 (j 0) k) (ix2 (i 0) k) h0 (fun _ => rfl) rfl)

end Cert.Lib.RowLayers

end
-- ==== Proof.Hop1.lean ====
/-
  What the first kernel region leaves in its output array.

  The region walks twenty grid points. At point `t` it loads rows `5000 t … 5000 t + 4999` of the aggregated features
  (all 64 columns), the whole 64 × 64 weight and the whole 1 × 64 bias row, and writes `relu (x · W + b)` of that block of
  rows to the same rows of the output. Each entry of the layer depends on one row only, so the blocks are the
  restrictions of one function of the whole arrays, and the twenty blocks of 5000 rows tile the 100000 rows: the output
  array ends holding `relu (A · W + b)` of the arrays the region found.
-/
import proofs.«167699_j35021163331781_2_alg».proof.Proof.Gen.KernelIdeal.Frame
import proofs.«167699_j35021163331781_2_alg».proof.Proof.LibRowLayers
import Idealize.ShloMosaic.Lib.Pipeline.Value
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Hop1

open Cert.KernelIdeal Cert.KernelIdeal.Gen Cert.Lib.BiasDot Cert.Lib.Dense Cert.Lib.RowLayers

variable (V : (c : Dev nD) → (b : Ref sig .tc) → Buf (Elt Ideal) ((c : Thread nD τ).loc b))

theorem hz : (![0, 0] : Fin 2 → Nat) = fun _ => 0 := funext fun a => by fin_cases a <;> rfl

/-- The body's stored value is the first layer of its three loaded blocks. -/
theorem pay_eq (v0 : Vec Ideal S5000x64 .f32) (v3 : Vec Ideal S64x64 .f32) (v6 : Vec Ideal S1x64 .f32) :
    k0_pay1 (F := Ideal) v0 v3 v6 = relu (lin v0 v3 (rowVec v6)) := by
  unfold k0_pay1
  refine (reluLayer_eq _ rfl (shapeCast S5000x64 v0 shapeCasts_S5000x64_S5000x64) v3 v6 _ _ _ _).trans ?_
  rw [shapeCast_self]

/-- The layer of the arrays the region finds. -/
abbrev G (c : Dev nD) : S100000x64.Idx → EReal :=
  relu (lin (V c main_v9 : S100000x64.Idx → EReal) (V c main_arg3 : S64x64.Idx → EReal) (rowVec (V c main_v10 : S1x64.Idx → EReal)))

/-- The printed index maps over the grid: the feature and the output blocks move together down the rows, the weight and
    the bias blocks stay at the origin. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- What point `t` writes back is block `t` of the layer of the whole arrays. -/
theorem flushed_eq (c : Dev nD) (t : Fin cfg0.N) :
    (dat0 V c).flushed 3 t = ((cfg0.win 3).blk t).view.read (Elt Ideal) (G V c) := by
  show (cfg0.win 3).cut (grid0.coords t) ((dat0 V c).after 3 t) = _
  rw [after0_3]
  unfold out0_3
  rw [View.canon_unit_zero hz]
  simp only [View.ld_unit_zero (S := S5000x64) hz, View.ld_unit_zero (S := S64x64) hz, View.ld_unit_zero (S := S1x64) hz]
  rw [pay_eq]
  obtain ⟨e0, e1, e2, e3, e4, e5, e6, e7⟩ := idx_facts t
  funext j
  show relu (lin (iblk0 V c 0 t) (iblk0 V c 1 t) (rowVec (iblk0 V c 2 t))) j = G V c (((cfg0.win 3).blk t).view.emb j)
  refine layer_block _ _ _ _ _ _ j _ (fun k => ?_) (fun k => ?_) ?_
  · show V c main_v9 (((cfg0.win 0).blk t).view.emb (ix2 (j 0) k)) = V c main_v9 (ix2 ((((cfg0.win 3).blk t).view.emb j) 0) k)
    refine congrArg _ (funext fun a => Fin.ext ?_)
    match a with
    | ⟨0, _⟩ => show win0_0.index t (0 : Fin 2) * 5000 + 1 * (j 0).val = win0_3.index t (0 : Fin 2) * 5000 + 1 * (j 0).val; omega
    | ⟨1, _⟩ => show win0_0.index t (1 : Fin 2) * 64 + 1 * k.val = k.val; omega
  · show V c main_arg3 (((cfg0.win 1).blk t).view.emb (ix2 k (j 1))) = V c main_arg3 (ix2 k ((((cfg0.win 3).blk t).view.emb j) 1))
    refine congrArg _ (funext fun a => Fin.ext ?_)
    match a with
    | ⟨0, _⟩ => show win0_1.index t (0 : Fin 2) * 64 + 1 * k.val = k.val; omega
    | ⟨1, _⟩ => show win0_1.index t (1 : Fin 2) * 64 + 1 * (j 1).val = win0_3.index t (1 : Fin 2) * 64 + 1 * (j 1).val; omega
  · show V c main_v10 (((cfg0.win 2).blk t).view.emb (ix2 (0 : Fin 1) (j 1))) = V c main_v10 (ix2 (0 : Fin 1) ((((cfg0.win 3).blk t).view.emb j) 1))
    refine congrArg _ (funext fun a => Fin.ext ?_)
    match a with
    | ⟨0, _⟩ => show win0_2.index t (0 : Fin 2) * 1 + 1 * 0 = 0; omega
    | ⟨1, _⟩ => show win0_2.index t (1 : Fin 2) * 64 + 1 * (j 1).val = win0_3.index t (1 : Fin 2) * 64 + 1 * (j 1).val; omega

/-- An index of the output array is in point `t`'s block iff each coordinate is in the block's range on its axis. -/
theorem mem_blk (t : Fin cfg0.N) (i : S100000x64.Idx) :
    i ∈ ((cfg0.win 3).blk t).view.set ↔ ∀ a : Fin 2, win0_3.index t a * S5000x64.size a ≤ (i a).val ∧ (i a).val < win0_3.index t a * S5000x64.size a + S5000x64.size a := by
  show i ∈ ((View.whole main_v11).slice (win0_3.rect t)).set ↔ _
  rw [View.set_slice_whole, Rect.mem_set_unit]
  exact Iff.rfl

/-- Row `r` of the output is in the block of point `r / 5000`. -/
theorem cover (i : S100000x64.Idx) : ∃ t : Fin cfg0.N, (cfg0.win 3).flush t = true ∧ i ∈ ((cfg0.win 3).blk t).view.set := by
  have h0 : (i 0).val < 100000 := (i 0).isLt
  have h1 : (i 1).val < 64 := (i 1).isLt
  have hN : cfg0.N = 20 := N_0
  let t : Fin cfg0.N := ⟨(i 0).val / 5000, by rw [hN]; omega⟩
  obtain ⟨e0, e1, e2, e3, e4, e5, e6, e7⟩ := idx_facts t
  have ht : t.val = (i 0).val / 5000 := rfl
  refine ⟨t, flush0_3 t, ?_⟩
  rw [mem_blk]
  intro a
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 64 ≤ (i 1).val ∧ (i 1).val < win0_3.index t (1 : Fin 2) * 64 + 64; omega

/-- The output array after the region: the first layer of the arrays the region found. -/
theorem final (c : Dev nD) : (dat0 V c).arrAt 3 cfg0.N = G V c :=
  (dat0 V c).arrAt_eq_of_cover 3 (G V c) (fun t _ => flushed_eq V c t) (cover)

end Cert.KernelIdeal.Hop1

end
-- ==== Proof.Hop2.lean ====
/-
  What the second kernel region leaves in its output array.

  The region walks twenty grid points. At point `t` it loads rows `5000 t … 5000 t + 4999` of the twice-aggregated
  features (all 64 columns), the whole 64 × 64 weight and 1 × 64 bias row of the second hidden layer, and the whole 64 × 32
  weight and 1 × 32 bias row of the output layer, and writes `relu (x · W₂ + b₂) · W_fc + b_fc` of that block of rows to the
  same rows of the 100000 × 32 output. Each entry depends on one row of the features only, so the blocks are the
  restrictions of one function of the whole arrays, and the twenty blocks of 5000 rows tile the 100000 rows.
-/
import proofs.«167699_j35021163331781_2_alg».proof.Proof.Gen.KernelIdeal.Frame
import proofs.«167699_j35021163331781_2_alg».proof.Proof.LibRowLayers
import Idealize.ShloMosaic.Lib.Pipeline.Value
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Hop2

open Cert.KernelIdeal Cert.KernelIdeal.Gen Cert.Lib.BiasDot Cert.Lib.Dense Cert.Lib.RowLayers

variable (V : (c : Dev nD) → (b : Ref sig .tc) → Buf (Elt Ideal) ((c : Thread nD τ).loc b))

theorem hz : (![0, 0] : Fin 2 → Nat) = fun _ => 0 := funext fun a => by fin_cases a <;> rfl

/-- The body's stored value is the output layer of the hidden layer of its five loaded blocks. -/
theorem pay_eq (v0 : Vec Ideal S5000x64 .f32) (v3 : Vec Ideal S64x64 .f32) (v6 : Vec Ideal S1x64 .f32)
    (v13 : Vec Ideal S64x32 .f32) (v16 : Vec Ideal S1x32 .f32) :
    k1_pay1 (F := Ideal) v0 v3 v6 v13 v16 = lin (relu (lin v0 v3 (rowVec v6))) v13 (rowVec v16) := by
  unfold k1_pay1
  refine (linLayer_eq _ rfl _ v13 v16 _ _ _ _).trans ?_
  exact congrArg (fun z => lin z v13 (rowVec v16))
    ((reluLayer_eq _ rfl (shapeCast S5000x64 v0 shapeCasts_S5000x64_S5000x64) v3 v6 _ _ _ _).trans (by rw [shapeCast_self]))

/-- The two layers of the arrays the region finds. -/
abbrev G (c : Dev nD) : S100000x32.Idx → EReal :=
  lin (relu (lin (V c main_v21 : S100000x64.Idx → EReal) (V c main_arg5 : S64x64.Idx → EReal) (rowVec (V c main_v22 : S1x64.Idx → EReal))))
    (V c main_arg7 : S64x32.Idx → EReal) (rowVec (V c main_v23 : S1x32.Idx → EReal))

/-- The printed index maps over the grid: the feature and the output blocks move together down the rows, the weights'
    and the bias rows' blocks stay at the origin. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- What point `t` writes back is block `t` of the two layers of the whole arrays. -/
theorem flushed_eq (c : Dev nD) (t : Fin cfg1.N) :
    (dat1 V c).flushed 5 t = ((cfg1.win 5).blk t).view.read (Elt Ideal) (G V c) := by
  show (cfg1.win 5).cut (grid1.coords t) ((dat1 V c).after 5 t) = _
  rw [after1_5]
  unfold out1_5
  rw [View.canon_unit_zero hz]
  simp only [View.ld_unit_zero (S := S5000x64) hz, View.ld_unit_zero (S := S64x64) hz, View.ld_unit_zero (S := S1x64) hz,
    View.ld_unit_zero (S := S64x32) hz, View.ld_unit_zero (S := S1x32) hz]
  rw [pay_eq]
  obtain ⟨e0, e1, e2, e3, e4, e5, e6, e7, e8, e9, e10, e11⟩ := idx_facts t
  funext j
  show lin (relu (lin (iblk1 V c 0 t) (iblk1 V c 1 t) (rowVec (iblk1 V c 2 t)))) (iblk1 V c 3 t) (rowVec (iblk1 V c 4 t)) j
    = G V c (((cfg1.win 5).blk t).view.emb j)
  refine head_block _ _ _ _ _ _ _ _ _ _ j _ (fun k => ?_) (funext fun y => ?_) (funext fun y => ?_) (fun k => ?_) ?_
  · show V c main_v21 (((cfg1.win 0).blk t).view.emb (ix2 (j 0) k)) = V c main_v21 (ix2 ((((cfg1.win 5).blk t).view.emb j) 0) k)
    refine congrArg _ (funext fun a => Fin.ext ?_)
    match a with
    | ⟨0, _⟩ => show win1_0.index t (0 : Fin 2) * 5000 + 1 * (j 0).val = win1_5.index t (0 : Fin 2) * 5000 + 1 * (j 0).val; omega
    | ⟨1, _⟩ => show win1_0.index t (1 : Fin 2) * 64 + 1 * k.val = k.val; omega
  · show V c main_arg5 (((cfg1.win 1).blk t).view.emb y) = V c main_arg5 y
    refine congrArg _ (funext fun a => Fin.ext ?_)
    match a with
    | ⟨0, _⟩ => show win1_1.index t (0 : Fin 2) * 64 + 1 * (y 0).val = (y 0).val; omega
    | ⟨1, _⟩ => show win1_1.index t (1 : Fin 2) * 64 + 1 * (y 1).val = (y 1).val; omega
  · show V c main_v22 (((cfg1.win 2).blk t).view.emb y) = V c main_v22 y
    refine congrArg _ (funext fun a => Fin.ext ?_)
    match a with
    | ⟨0, _⟩ => show win1_2.index t (0 : Fin 2) * 1 + 1 * (y 0).val = (y 0).val; omega
    | ⟨1, _⟩ => show win1_2.index t (1 : Fin 2) * 64 + 1 * (y 1).val = (y 1).val; omega
  · show V c main_arg7 (((cfg1.win 3).blk t).view.emb (ix2 k (j 1))) = V c main_arg7 (ix2 k ((((cfg1.win 5).blk t).view.emb j) 1))
    refine congrArg _ (funext fun a => Fin.ext ?_)
    match a with
    | ⟨0, _⟩ => show win1_3.index t (0 : Fin 2) * 64 + 1 * k.val = k.val; omega
    | ⟨1, _⟩ => show win1_3.index t (1 : Fin 2) * 32 + 1 * (j 1).val = win1_5.index t (1 : Fin 2) * 32 + 1 * (j 1).val; omega
  · show V c main_v23 (((cfg1.win 4).blk t).view.emb (ix2 (0 : Fin 1) (j 1))) = V c main_v23 (ix2 (0 : Fin 1) ((((cfg1.win 5).blk t).view.emb j) 1))
    refine congrArg _ (funext fun a => Fin.ext ?_)
    match a with
    | ⟨0, _⟩ => show win1_4.index t (0 : Fin 2) * 1 + 1 * 0 = 0; omega
    | ⟨1, _⟩ => show win1_4.index t (1 : Fin 2) * 32 + 1 * (j 1).val = win1_5.index t (1 : Fin 2) * 32 + 1 * (j 1).val; omega

/-- An index of the output array is in point `t`'s block iff each coordinate is in the block's range on its axis. -/
theorem mem_blk (t : Fin cfg1.N) (i : S100000x32.Idx) :
    i ∈ ((cfg1.win 5).blk t).view.set ↔ ∀ a : Fin 2, win1_5.index t a * S5000x32.size a ≤ (i a).val ∧ (i a).val < win1_5.index t a * S5000x32.size a + S5000x32.size a := by
  show i ∈ ((View.whole main_v24).slice (win1_5.rect t)).set ↔ _
  rw [View.set_slice_whole, Rect.mem_set_unit]
  exact Iff.rfl

/-- Row `r` of the output is in the block of point `r / 5000`. -/
theorem cover (i : S100000x32.Idx) : ∃ t : Fin cfg1.N, (cfg1.win 5).flush t = true ∧ i ∈ ((cfg1.win 5).blk t).view.set := by
  have h0 : (i 0).val < 100000 := (i 0).isLt
  have h1 : (i 1).val < 32 := (i 1).isLt
  have hN : cfg1.N = 20 := N_1
  let t : Fin cfg1.N := ⟨(i 0).val / 5000, by rw [hN]; omega⟩
  obtain ⟨e0, e1, e2, e3, e4, e5, e6, e7, e8, e9, e10, e11⟩ := idx_facts t
  have ht : t.val = (i 0).val / 5000 := rfl
  refine ⟨t, flush1_5 t, ?_⟩
  rw [mem_blk]
  intro a
  match a with
  | ⟨0, _⟩ => show win1_5.index t (0 : Fin 2) * 5000 ≤ (i 0).val ∧ (i 0).val < win1_5.index t (0 : Fin 2) * 5000 + 5000; omega
  | ⟨1, _⟩ => show win1_5.index t (1 : Fin 2) * 32 ≤ (i 1).val ∧ (i 1).val < win1_5.index t (1 : Fin 2) * 32 + 32; omega

/-- The output array after the region: the two layers of the arrays the region found. -/
theorem final (c : Dev nD) : (dat1 V c).arrAt 5 cfg1.N = G V c :=
  (dat1 V c).arrAt_eq_of_cover 5 (G V c) (fun t _ => flushed_eq V c t) (cover)

end Cert.KernelIdeal.Hop2

end
-- ==== Proof.KernelValue.lean ====
/-
  The idealized kernel's result as one function of its nine arguments.

  The program aggregates the features over the edges (a row gather by the source index, wrapped once if negative, then a
  scatter-add of the gathered rows into a zero array by the destination index), applies the first layer in a kernel
  region, aggregates the layer's output over the same edges, and applies the second hidden layer and the output layer in a
  second kernel region. The aggregation is carried as one function `agg` of the features and the two index arrays and is
  never opened. Reading the buffers at each boundary of the program — after the first stretch of host operations, after
  the first region, after the second stretch, after the second region — gives the result array as
  `lin (relu (lin (agg (relu (lin (agg x src dst) W₁ b₁)) src dst) W₂ b₂)) W_fc b_fc`.
-/
import proofs.«167699_j35021163331781_2_alg».proof.Proof.NamedRun
import proofs.«167699_j35021163331781_2_alg».proof.Proof.Hop1
import proofs.«167699_j35021163331781_2_alg».proof.Proof.Hop2
import Idealize.ShloMosaic.Lib.StableHlo.Run

set_option maxRecDepth 16384

noncomputable section

open Idealize.ShloMosaic Idealize.ShloMosaic.TcCoe Idealize.SL.Sem Idealize.ShloMosaic.StableHlo Idealize.ShloMosaic.ValueIdx

namespace Cert.KernelIdeal.Net

open Cert.KernelIdeal Cert.KernelIdeal.Gen Cert.Lib.BiasDot Cert.Lib.Dense Cert.Lib.RowLayers

/-- The sum over incoming edges: row `v` of the result is the sum of the rows `x[src e]` over the edges `e` with
    `dst e = v`, as the host spells it (a negative source index is wrapped by the row count before the gather). -/
def agg (x : FVec Ideal S100000x64 .f32) (src dst : IVec S1600000 32) :
    FVec Ideal S100000x64 .f32 :=
  Host.scatterAdd (F := Ideal) scatter_S100000x64_S1600000x1_S1600000x64_1_0_0_1
    (broadcastInDim S100000x64 ![] bcast_S_S100000x64 (constant (F := Ideal) S_ .f32 0x00000000#32))
    (broadcastInDim S1600000x1 ![0] bcast_S1600000_S1600000x1_0 dst)
    (Host.gather gather_S100000x64_S1600000x1_S1600000x64_1_0_n_n_0_1_164 x
      (broadcastInDim S1600000x1 ![0] bcast_S1600000_S1600000x1_0
        (select (cmpi .slt src (broadcastInDim S1600000 ![] bcast_S_S1600000 (constantI S_ 32 0#32)))
          (addi src (broadcastInDim S1600000 ![] bcast_S_S1600000 (constantI S_ 32 100000#32))) src)))

/-- The network: two aggregate-then-layer hops and the output layer. -/
def net (x : FVec Ideal S100000x64 .f32) (src dst : IVec S1600000 32)
    (W1 : S64x64.Idx → EReal) (b1 : S64.Idx → EReal) (W2 : S64x64.Idx → EReal) (b2 : S64.Idx → EReal)
    (Wfc : S64x32.Idx → EReal) (bfc : S32.Idx → EReal) : S100000x32.Idx → EReal :=
  lin (relu (lin (agg (relu (lin (agg x src dst) W1 b1)) src dst) W2 b2)) Wfc bfc

variable (m : (ℓ : Loc nD τ sig) → Buf (Elt Ideal) ℓ) (ρ : Dev nD → PrngReg)

/-! ## The buffers when the first region is entered -/

theorem entry1_feat (c : Dev nD) : V1 m ρ c main_v9
    = agg (m ((c : Thread nD τ).loc main_arg0)) (m ((c : Thread nD τ).loc main_arg1)) (m ((c : Thread nD τ).loc main_arg2)) := by
  show StableHlo.after hostOps0 (W0 m ρ c) (Proc.devRef .tc main_v9) = _
  after_results
  rfl

theorem entry1_weight (c : Dev nD) : V1 m ρ c main_arg3 = m ((c : Thread nD τ).loc main_arg3) := by
  show StableHlo.after hostOps0 (W0 m ρ c) (Proc.devRef .tc main_arg3) = _
  after_results

theorem entry1_bias (c : Dev nD) : rowVec (V1 m ρ c main_v10 : S1x64.Idx → EReal) = m ((c : Thread nD τ).loc main_arg4) := by
  have h : (V1 m ρ c main_v10 : S1x64.Idx → EReal)
      = shapeCast S1x64 (m ((c : Thread nD τ).loc main_arg4) : S64.Idx → EReal) shapeCasts_S64_S1x64 := by
    show StableHlo.after hostOps0 (W0 m ρ c) (Proc.devRef .tc main_v10) = _
    after_results
    rfl
  rw [h]
  exact rowVec_reshape _ _

/-! ## The arguments when the first region is left -/

theorem exit1_arg1 (c : Dev nD) : W2 m ρ c (Proc.devRef .tc main_arg1) = m ((c : Thread nD τ).loc main_arg1) :=
  (W2_of_ne m ρ c main_arg1 (by decide)).trans (by
    show StableHlo.after hostOps0 (W0 m ρ c) (Proc.devRef .tc main_arg1) = _
    after_results)
theorem exit1_arg2 (c : Dev nD) : W2 m ρ c (Proc.devRef .tc main_arg2) = m ((c : Thread nD τ).loc main_arg2) :=
  (W2_of_ne m ρ c main_arg2 (by decide)).trans (by
    show StableHlo.after hostOps0 (W0 m ρ c) (Proc.devRef .tc main_arg2) = _
    after_results)
theorem exit1_arg5 (c : Dev nD) : W2 m ρ c (Proc.devRef .tc main_arg5) = m ((c : Thread nD τ).loc main_arg5) :=
  (W2_of_ne m ρ c main_arg5 (by decide)).trans (by
    show StableHlo.after hostOps0 (W0 m ρ c) (Proc.devRef .tc main_arg5) = _
    after_results)
theorem exit1_arg6 (c : Dev nD) : W2 m ρ c (Proc.devRef .tc main_arg6) = m ((c : Thread nD τ).loc main_arg6) :=
  (W2_of_ne m ρ c main_arg6 (by decide)).trans (by
    show StableHlo.after hostOps0 (W0 m ρ c) (Proc.devRef .tc main_arg6) = _
    after_results)
theorem exit1_arg7 (c : Dev nD) : W2 m ρ c (Proc.devRef .tc main_arg7) = m ((c : Thread nD τ).loc main_arg7) :=
  (W2_of_ne m ρ c main_arg7 (by decide)).trans (by
    show StableHlo.after hostOps0 (W0 m ρ c) (Proc.devRef .tc main_arg7) = _
    after_results)
theorem exit1_arg8 (c : Dev nD) : W2 m ρ c (Proc.devRef .tc main_arg8) = m ((c : Thread nD τ).loc main_arg8) :=
  (W2_of_ne m ρ c main_arg8 (by decide)).trans (by
    show StableHlo.after hostOps0 (W0 m ρ c) (Proc.devRef .tc main_arg8) = _
    after_results)

/-- The first region's output: the first layer of the aggregated features. -/
theorem exit1_hidden (c : Dev nD) : W2 m ρ c (Proc.devRef .tc main_v11)
    = relu (lin (agg (m ((c : Thread nD τ).loc main_arg0)) (m ((c : Thread nD τ).loc main_arg1)) (m ((c : Thread nD τ).loc main_arg2)))
        (m ((c : Thread nD τ).loc main_arg3)) (m ((c : Thread nD τ).loc main_arg4))) := by
  refine ((W2_arr m ρ c 3).trans (Hop1.final (V1 m ρ) c)).trans ?_
  unfold Hop1.G
  rw [entry1_feat, entry1_weight, entry1_bias]

/-! ## The buffers when the second region is entered -/

theorem entry2_feat (c : Dev nD) : V3 m ρ c main_v21
    = agg (W2 m ρ c (Proc.devRef .tc main_v11)) (m ((c : Thread nD τ).loc main_arg1)) (m ((c : Thread nD τ).loc main_arg2)) := by
  rw [← exit1_arg1 m ρ c, ← exit1_arg2 m ρ c]
  show StableHlo.after hostOps1 (W2 m ρ c) (Proc.devRef .tc main_v21) = _
  after_results
  rfl

theorem entry2_weight (c : Dev nD) : V3 m ρ c main_arg5 = m ((c : Thread nD τ).loc main_arg5) := by
  rw [← exit1_arg5 m ρ c]
  show StableHlo.after hostOps1 (W2 m ρ c) (Proc.devRef .tc main_arg5) = _
  after_results

theorem entry2_weight_out (c : Dev nD) : V3 m ρ c main_arg7 = m ((c : Thread nD τ).loc main_arg7) := by
  rw [← exit1_arg7 m ρ c]
  show StableHlo.after hostOps1 (W2 m ρ c) (Proc.devRef .tc main_arg7) = _
  after_results

theorem entry2_bias (c : Dev nD) : rowVec (V3 m ρ c main_v22 : S1x64.Idx → EReal) = m ((c : Thread nD τ).loc main_arg6) := by
  have h : (V3 m ρ c main_v22 : S1x64.Idx → EReal)
      = shapeCast S1x64 (W2 m ρ c (Proc.devRef .tc main_arg6) : S64.Idx → EReal) shapeCasts_S64_S1x64 := by
    show StableHlo.after hostOps1 (W2 m ρ c) (Proc.devRef .tc main_v22) = _
    after_results
    rfl
  rw [h, exit1_arg6]
  exact rowVec_reshape _ _

theorem entry2_bias_out (c : Dev nD) : rowVec (V3 m ρ c main_v23 : S1x32.Idx → EReal) = m ((c : Thread nD τ).loc main_arg8) := by
  have h : (V3 m ρ c main_v23 : S1x32.Idx → EReal)
      = shapeCast S1x32 (W2 m ρ c (Proc.devRef .tc main_arg8) : S32.Idx → EReal) shapeCasts_S32_S1x32 := by
    show StableHlo.after hostOps1 (W2 m ρ c) (Proc.devRef .tc main_v23) = _
    after_results
    rfl
  rw [h, exit1_arg8]
  exact rowVec_reshape _ _

/-! ## The result -/

/-- The result array at the last boundary is the network of the arguments. -/
theorem result (c : Dev nD) : W4 m ρ c (Proc.devRef .tc main_v24)
    = net (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8)) := by
  refine ((W4_arr m ρ c 5).trans (Hop2.final (V3 m ρ) c)).trans ?_
  unfold Hop2.G net
  rw [entry2_feat, entry2_weight, entry2_weight_out, entry2_bias, entry2_bias_out, exit1_hidden]

/-- The run, read: the result array at the network of the arguments, the arguments unchanged. -/
theorem run : θ_run defs (onTc (τ := τ) (main (F := Ideal))) ⟨m, fun _ => 0, ρ⟩ (fun r => ∀ c : Dev nD,
      r.2.mem ((c.tc : Thread nD τ).loc main_v24)
        = net (m ((c : Thread nD τ).loc main_arg0)) (m ((c : Thread nD τ).loc main_arg1)) (m ((c : Thread nD τ).loc main_arg2))
            (m ((c : Thread nD τ).loc main_arg3)) (m ((c : Thread nD τ).loc main_arg4)) (m ((c : Thread nD τ).loc main_arg5))
            (m ((c : Thread nD τ).loc main_arg6)) (m ((c : Thread nD τ).loc main_arg7)) (m ((c : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨(h c).1.trans (result m ρ c), (h c).2⟩) (Cert.KernelIdeal.Named.run m ρ)

end Cert.KernelIdeal.Net

end
-- ==== Proof.LibCatDot.lean ====
/-
  The host's linear layers without a positive part, as whole-array functions on the extended reals.

  A product plus a bias row broadcast in two steps is the linear layer `lin`; two products added, plus such a row,
  the two-product layer `lin2`. A product whose left operand is two blocks set side by side, plus such a bias row, is
  the two-product layer of the blocks against the top and the bottom row ranges of the weight (`rowsTop`,
  `rowsBot`): the sum over the contraction index splits at the seam, which uses only that addition of extended reals
  is associative and commutative, so it holds at infinite entries too. The two row ranges are also what the two
  unit-stride slices of the weight at row offsets `0` and `K` read.
-/
import Idealize.ShloMosaic.Lib.ValueIdx
import Idealize.ShloMosaic.Lib.Pipeline.Value
import Idealize.ShloMosaic.PureOps.Ideal.Laws
import proofs.«167699_j35021163331781_2_alg».proof.Proof.LibDense

noncomputable section

open scoped BigOperators

namespace Cert.Lib.CatDot

open Idealize.ShloMosaic Idealize.ShloMosaic.ValueIdx Cert.Lib.BiasDot Cert.Lib.Dense

variable {M K K' N : Nat}

/-- The first `K` rows of a matrix of `K + K'` rows. -/
def rowsTop (Wc : (⟨2, ![K + K', N]⟩ : Shape).Idx → EReal) : (⟨2, ![K, N]⟩ : Shape).Idx → EReal :=
  fun i => Wc (ix2 (Fin.castAdd K' (i 0)) (i 1))

/-- Its last `K'` rows. -/
def rowsBot (Wc : (⟨2, ![K + K', N]⟩ : Shape).Idx → EReal) : (⟨2, ![K', N]⟩ : Shape).Idx → EReal :=
  fun i => Wc (ix2 (Fin.natAdd K (i 0)) (i 1))

/-- The slice at row offset `0` is the first `K` rows. -/
theorem slice_rowsTop (Wc : (⟨2, ![K + K', N]⟩ : Shape).Idx → EReal)
    (hs1 : (⟨2, ![K + K', N]⟩ : Shape).Slices ![0, 0] ⟨2, ![K, N]⟩) :
    extractStridedSlice ⟨2, ![K, N]⟩ ![0, 0] Wc hs1 = rowsTop Wc := by
  funext i
  obtain ⟨k, q, rfl⟩ : ∃ (k : Fin K) (q : Fin N), i = ix2 k q := ⟨i 0, i 1, eq_ix2 i⟩
  exact slice_top Wc hs1 k q

/-- The slice at row offset `K` is the last `K'` rows. -/
theorem slice_rowsBot (Wc : (⟨2, ![K + K', N]⟩ : Shape).Idx → EReal)
    (hs2 : (⟨2, ![K + K', N]⟩ : Shape).Slices ![K, 0] ⟨2, ![K', N]⟩) :
    extractStridedSlice ⟨2, ![K', N]⟩ ![K, 0] Wc hs2 = rowsBot Wc := by
  funext i
  obtain ⟨k, q, rfl⟩ : ∃ (k : Fin K') (q : Fin N), i = ix2 k q := ⟨i 0, i 1, eq_ix2 i⟩
  exact slice_bot Wc hs2 k q

/-- The sum over the contraction index of the side-by-side operand against the weight splits at the seam into the two
    blocks' sums against the first and the last rows of the weight. -/
theorem sum_concat_rows (A : (⟨2, ![M, K]⟩ : Shape).Idx → EReal) (C : (⟨2, ![M, K']⟩ : Shape).Idx → EReal)
    (Wc : (⟨2, ![K + K', N]⟩ : Shape).Idx → EReal)
    (hcat : Shape.Concatenates [(⟨2, ![M, K]⟩ : Shape), ⟨2, ![M, K']⟩] ⟨2, ![M, K + K']⟩ 1) (p : Fin M) (q : Fin N) :
    (∑ k : Fin (K + K'), concatenate ⟨2, ![M, K + K']⟩ 1 [⟨⟨2, ![M, K]⟩, A⟩, ⟨⟨2, ![M, K']⟩, C⟩] hcat (ix2 p k) * Wc (ix2 k q))
      = (∑ k : Fin K, A (ix2 p k) * rowsTop Wc (ix2 k q)) + (∑ k : Fin K', C (ix2 p k) * rowsBot Wc (ix2 k q)) := by
  rw [Fin.sum_univ_add]
  refine congrArg₂ (· + ·) (Finset.sum_congr rfl fun k _ => ?_) (Finset.sum_congr rfl fun k _ => ?_)
  · rw [concat_left]; rfl
  · rw [concat_right]; rfl

/-- The host's linear layer: product, bias broadcast in two steps, sum. -/
theorem host_lin (d : DotDims ⟨2, ![M, K]⟩ ⟨2, ![K, N]⟩ ⟨2, ![M, N]⟩) (hd : d = DotDims.plain M K N)
    (X : FVec Ideal ⟨2, ![M, K]⟩ .f32) (W : FVec Ideal ⟨2, ![K, N]⟩ .f32) (B : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1]) :
    addf (Host.dotGeneral d none X W)
        (broadcastInDim ⟨2, ![M, N]⟩ ![0, 1] h2 (broadcastInDim ⟨2, ![1, N]⟩ ![1] h1 B))
      = lin X W B := by
  subst hd
  funext i
  obtain ⟨p, q, rfl⟩ : ∃ (p : Fin M) (q : Fin N), i = ix2 p q := ⟨i 0, i 1, eq_ix2 i⟩
  rw [addf_apply, hostRow_apply]
  exact congrArg (fun z => z + B (ix1 q)) (Cert.Lib.PlainDot.dotGeneral_apply none _ X W p q)

/-- Two host products added, then a bias row broadcast in two steps added: the two-product layer. -/
theorem host_lin2 (d : DotDims ⟨2, ![M, K]⟩ ⟨2, ![K, N]⟩ ⟨2, ![M, N]⟩) (hd : d = DotDims.plain M K N)
    (d' : DotDims ⟨2, ![M, K']⟩ ⟨2, ![K', N]⟩ ⟨2, ![M, N]⟩) (hd' : d' = DotDims.plain M K' N)
    (A : FVec Ideal ⟨2, ![M, K]⟩ .f32) (Wa : FVec Ideal ⟨2, ![K, N]⟩ .f32)
    (C : FVec Ideal ⟨2, ![M, K']⟩ .f32) (Wb : FVec Ideal ⟨2, ![K', N]⟩ .f32) (B : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1]) :
    addf (addf (Host.dotGeneral d none A Wa) (Host.dotGeneral d' none C Wb))
        (broadcastInDim ⟨2, ![M, N]⟩ ![0, 1] h2 (broadcastInDim ⟨2, ![1, N]⟩ ![1] h1 B))
      = lin2 A Wa C Wb B := by
  subst hd
  subst hd'
  funext i
  obtain ⟨p, q, rfl⟩ : ∃ (p : Fin M) (q : Fin N), i = ix2 p q := ⟨i 0, i 1, eq_ix2 i⟩
  rw [addf_apply, addf_apply, hostRow_apply]
  exact congrArg₂ (fun y z => y + z + B (ix1 q)) (Cert.Lib.PlainDot.dotGeneral_apply none _ A Wa p q)
    (Cert.Lib.PlainDot.dotGeneral_apply none _ C Wb p q)

/-- The host's layer over a side-by-side operand: the concatenation against the whole weight, plus the bias row, is the
    two-product layer of the two blocks against the first and the last rows of the weight. -/
theorem host_concat_lin2 (d : DotDims ⟨2, ![M, K + K']⟩ ⟨2, ![K + K', N]⟩ ⟨2, ![M, N]⟩) (hd : d = DotDims.plain M (K + K') N)
    (A : FVec Ideal ⟨2, ![M, K]⟩ .f32) (C : FVec Ideal ⟨2, ![M, K']⟩ .f32) (Wc : FVec Ideal ⟨2, ![K + K', N]⟩ .f32)
    (B : FVec Ideal ⟨1, ![N]⟩ .f32)
    (hcat : Shape.Concatenates [(⟨2, ![M, K]⟩ : Shape), ⟨2, ![M, K']⟩] ⟨2, ![M, K + K']⟩ 1)
    (h1 : (⟨1, ![N]⟩ : Shape).BroadcastsInDim ⟨2, ![1, N]⟩ ![1])
    (h2 : (⟨2, ![1, N]⟩ : Shape).BroadcastsInDim ⟨2, ![M, N]⟩ ![0, 1]) :
    addf (Host.dotGeneral d none
          (concatenate ⟨2, ![M, K + K']⟩ 1 [⟨⟨2, ![M, K]⟩, A⟩, ⟨⟨2, ![M, K']⟩, C⟩] hcat) Wc)
        (broadcastInDim ⟨2, ![M, N]⟩ ![0, 1] h2 (broadcastInDim ⟨2, ![1, N]⟩ ![1] h1 B))
    = lin2 A (rowsTop Wc) C (rowsBot Wc) B := by
  subst hd
  funext i
  obtain ⟨p, q, rfl⟩ : ∃ (p : Fin M) (q : Fin N), i = ix2 p q := ⟨i 0, i 1, eq_ix2 i⟩
  rw [addf_apply, hostRow_apply]
  refine congrArg (fun z => z + B (ix1 q)) ?_
  exact (Cert.Lib.PlainDot.dotGeneral_apply none _ _ Wc p q).trans (sum_concat_rows A C Wc hcat p q)

end Cert.Lib.CatDot

end
-- ==== Proof.RefValue.lean ====
/-
  The idealized reference's result as one function of its nine arguments.

  The reference aggregates the features over the edges, applies a product, a bias broadcast in two steps, an addition and
  a maximum with a broadcast zero; does the same to the result with the second weight and bias; and ends with a product
  and a bias. The aggregation is carried as one function `agg` and is never opened. Entry by entry a product with the
  bias and the maximum is the positive part of the linear layer, and a product with the bias is the linear layer, so the
  reference's composed term is `lin (relu (lin (agg (relu (lin (agg x src dst) W₁ b₁)) src dst) W₂ b₂)) W_fc b_fc`.
-/
import proofs.«167699_j35021163331781_2_alg».proof.Proof.Gen.ReferenceIdeal.Run
import proofs.«167699_j35021163331781_2_alg».proof.Proof.LibCatDot

set_option maxRecDepth 16384

noncomputable section

open Idealize.ShloMosaic Idealize.ShloMosaic.TcCoe Idealize.SL.Sem Idealize.ShloMosaic.ValueIdx

namespace Cert.ReferenceIdeal.Net

open Cert.ReferenceIdeal Cert.ReferenceIdeal.Gen Cert.Lib.BiasDot Cert.Lib.Dense Cert.Lib.CatDot

/-- The sum over incoming edges, as the reference's host operations spell it. -/
def agg (x : FVec Ideal S100000x64 .f32) (src dst : IVec S1600000 32) :
    FVec Ideal S100000x64 .f32 :=
  Host.scatterAdd (F := Ideal) scatter_S100000x64_S1600000x1_S1600000x64_1_0_0_1
    (broadcastInDim S100000x64 ![] bcast_S_S100000x64 (constant (F := Ideal) S_ .f32 0x00000000#32))
    (broadcastInDim S1600000x1 ![0] bcast_S1600000_S1600000x1_0 dst)
    (Host.gather gather_S100000x64_S1600000x1_S1600000x64_1_0_n_n_0_1_164 x
      (broadcastInDim S1600000x1 ![0] bcast_S1600000_S1600000x1_0
        (select (cmpi .slt src (broadcastInDim S1600000 ![] bcast_S_S1600000 (constantI S_ 32 0#32)))
          (addi src (broadcastInDim S1600000 ![] bcast_S_S1600000 (constantI S_ 32 100000#32))) src)))

/-- The network: two aggregate-then-layer hops and the output layer. -/
def net (x : FVec Ideal S100000x64 .f32) (src dst : IVec S1600000 32)
    (W1 : S64x64.Idx → EReal) (b1 : S64.Idx → EReal) (W2 : S64x64.Idx → EReal) (b2 : S64.Idx → EReal)
    (Wfc : S64x32.Idx → EReal) (bfc : S32.Idx → EReal) : S100000x32.Idx → EReal :=
  lin (relu (lin (agg (relu (lin (agg x src dst) W1 b1)) src dst) W2 b2)) Wfc bfc

/-- The host's spelling of the network is the network. -/
theorem term_eq (x : FVec Ideal S100000x64 .f32) (src dst : IVec S1600000 32)
    (W1 : FVec Ideal S64x64 .f32) (b1 : FVec Ideal S64 .f32) (W2 : FVec Ideal S64x64 .f32) (b2 : FVec Ideal S64 .f32)
    (Wfc : FVec Ideal S64x32 .f32) (bfc : FVec Ideal S32 .f32) :
    addf (Host.dotGeneral (F := Ideal) dot_S100000x64_S64x32_S100000x32_1_0_0_1_n_n none
        (maximumf (addf (Host.dotGeneral (F := Ideal) dot_S100000x64_S64x64_S100000x64_1_0_0_1_n_n none
              (agg (maximumf (addf (Host.dotGeneral (F := Ideal) dot_S100000x64_S64x64_S100000x64_1_0_0_1_n_n none (agg x src dst) W1)
                    (broadcastInDim S100000x64 ![0, 1] bcast_S1x64_S100000x64_0_1 (broadcastInDim S1x64 ![1] bcast_S64_S1x64_1 b1)))
                  (broadcastInDim S100000x64 ![] bcast_S_S100000x64 (constant (F := Ideal) S_ .f32 0x00000000#32))) src dst) W2)
            (broadcastInDim S100000x64 ![0, 1] bcast_S1x64_S100000x64_0_1 (broadcastInDim S1x64 ![1] bcast_S64_S1x64_1 b2)))
          (broadcastInDim S100000x64 ![] bcast_S_S100000x64 (constant (F := Ideal) S_ .f32 0x00000000#32))) Wfc)
      (broadcastInDim S100000x32 ![0, 1] bcast_S1x32_S100000x32_0_1 (broadcastInDim S1x32 ![1] bcast_S32_S1x32_1 bfc))
    = net x src dst W1 b1 W2 b2 Wfc bfc := by
  have e1 := host_lin_relu dot_S100000x64_S64x64_S100000x64_1_0_0_1_n_n rfl (agg x src dst) W1 b1
    bcast_S64_S1x64_1 bcast_S1x64_S100000x64_0_1 ![] bcast_S_S100000x64
  have e2 := host_lin_relu dot_S100000x64_S64x64_S100000x64_1_0_0_1_n_n rfl (agg (relu (lin (agg x src dst) W1 b1)) src dst) W2 b2
    bcast_S64_S1x64_1 bcast_S1x64_S100000x64_0_1 ![] bcast_S_S100000x64
  rw [e1, e2]
  exact host_lin dot_S100000x64_S64x32_S100000x32_1_0_0_1_n_n rfl _ Wfc bfc bcast_S32_S1x32_1 bcast_S1x32_S100000x32_0_1

end Cert.ReferenceIdeal.Net

end
-- ==== Proof.lean ====
/-
  A two-hop graph convolution with an output layer: the kernel against its reference, on the extended reals.

  Both programs compute, from node features `x`, edge endpoints `src` and `dst`, and three weight-and-bias pairs,
      lin (relu (lin (agg (relu (lin (agg x src dst) W₁ b₁)) src dst) W₂ b₂)) W_fc b_fc,
  where `agg` sums the rows `x[src e]` over the edges `e` into row `dst e`, `lin A W b` is `A · W` plus the row `b` on every
  row, and `relu` is the maximum with zero. The kernel leaves the aggregation to the same host operations the reference uses
  and computes the layers in two kernel regions, each over twenty blocks of 5000 rows; the reference computes the layers
  with host products. At the ideal values a product into a zero accumulator is the host's product, the narrowing of an
  operand to a shorter float format is the identity, and a layer's entry depends on one row of its input only, so the
  blocks are the restrictions of the layer of the whole array and tile it. Nothing here needs the inputs to be finite:
  the two sides are the same sums of the same products in the same order, and the aggregation is never opened.

  The kernel's run with its result named is Proof/NamedRun.lean; what each region leaves is Proof/Hop1.lean and
  Proof/Hop2.lean over the layers of Proof/LibRowLayers.lean; the buffers at each boundary of the program and the result as
  the network are Proof/KernelValue.lean; the reference's composed term as the network is Proof/RefValue.lean. The
  kernel's idealization rewrote no operation, so `preserves` has nothing to state.
-/
import proofs.«167699_j35021163331781_2_alg».proof.Defs
import proofs.«167699_j35021163331781_2_alg».proof.Proof.Gen.Kernel
import proofs.«167699_j35021163331781_2_alg».proof.Proof.Gen.Kernel.Frame
import proofs.«167699_j35021163331781_2_alg».proof.Proof.Gen.KernelIdeal
import proofs.«167699_j35021163331781_2_alg».proof.Proof.Gen.KernelIdeal.Frame
import proofs.«167699_j35021163331781_2_alg».proof.Proof.Gen.ReferenceIdeal
import proofs.«167699_j35021163331781_2_alg».proof.Proof.Gen.ReferenceIdeal.Run
import proofs.«167699_j35021163331781_2_alg».proof.Proof.Gen.Pre_finite_inputs
import proofs.«167699_j35021163331781_2_alg».proof.Proof.KernelValue
import proofs.«167699_j35021163331781_2_alg».proof.Proof.RefValue
import Idealize.ShloMosaic.Adequacy
import Idealize.ShloMosaic.Init

noncomputable section

namespace Cert.Proof

open Idealize.ShloMosaic Idealize.ShloMosaic.TcCoe Idealize.SL.Sem

/-- The two programs spell the aggregation with the same host operations and the same dimension numbers. -/
theorem agg_eq (x : FVec Ideal Cert.ReferenceIdeal.S100000x64 .f32) (src dst : IVec Cert.ReferenceIdeal.S1600000 32) :
    Cert.ReferenceIdeal.Net.agg x src dst = Cert.KernelIdeal.Net.agg x src dst := rfl

/-- So the two networks are one function. -/
theorem net_eq (x : FVec Ideal Cert.ReferenceIdeal.S100000x64 .f32) (src dst : IVec Cert.ReferenceIdeal.S1600000 32)
    (W1 : Cert.ReferenceIdeal.S64x64.Idx → EReal) (b1 : Cert.ReferenceIdeal.S64.Idx → EReal)
    (W2 : Cert.ReferenceIdeal.S64x64.Idx → EReal) (b2 : Cert.ReferenceIdeal.S64.Idx → EReal)
    (Wfc : Cert.ReferenceIdeal.S64x32.Idx → EReal) (bfc : Cert.ReferenceIdeal.S32.Idx → EReal) :
    Cert.ReferenceIdeal.Net.net x src dst W1 b1 W2 b2 Wfc bfc = Cert.KernelIdeal.Net.net x src dst W1 b1 W2 b2 Wfc bfc := by
  unfold Cert.ReferenceIdeal.Net.net Cert.KernelIdeal.Net.net
  rw [agg_eq, agg_eq]

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- At the ideal values the kernel's result array ends at the network of its arguments and the reference's at the host's
    spelling of the network of arguments that agree with them: one function. -/
theorem algebraic : Cert.algebraic_KernelIdeal_ReferenceIdeal := by
  intro m ρ m' ρ' _ hagree
  refine ⟨_, Cert.KernelIdeal.Net.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8⟩ := hagree c
  rw [a0, a1, a2, a3, a4, a5, a6, a7, a8]
  exact (Cert.ReferenceIdeal.Net.term_eq _ _ _ _ _ _ _ _ _).trans (net_eq _ _ _ _ _ _ _ _ _)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
